-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S128x64 : Shape := ⟨2, ![128, 64]⟩
abbrev S1x64 : Shape := ⟨2, ![1, 64]⟩
abbrev S5000x64 : Shape := ⟨2, ![5000, 64]⟩
abbrev S5000x128 : Shape := ⟨2, ![5000, 128]⟩

abbrev nBuf : Space → Nat
  | .hbm => 76
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1, .i32⟩
  | .hbm, ⟨21, _⟩ => ⟨S_, .i32⟩
  | .hbm, ⟨22, _⟩ => ⟨S1600000x1, .i32⟩
  | .hbm, ⟨23, _⟩ => ⟨S1600000x1, .i1⟩
  | .hbm, ⟨24, _⟩ => ⟨S1x1, .i32⟩
  | .hbm, ⟨25, _⟩ => ⟨S1600000x1, .i32⟩
  | .hbm, ⟨26, _⟩ => ⟨S1600000x1, .i1⟩
  | .hbm, ⟨27, _⟩ => ⟨S1600000x1, .i1⟩
  | .hbm, ⟨28, _⟩ => ⟨S_, .i1⟩
  | .hbm, ⟨29, _⟩ => ⟨S1600000, .i1⟩
  | .hbm, ⟨30, _⟩ => ⟨S1600000x64, .f32⟩
  | .hbm, ⟨31, _⟩ => ⟨S1600000x64, .i1⟩
  | .hbm, ⟨32, _⟩ => ⟨S_, .f32⟩
  | .hbm, ⟨33, _⟩ => ⟨S1600000x64, .f32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S64x64, .f32⟩
  | .hbm, ⟨40, _⟩ => ⟨S64x64, .f32⟩
  | .hbm, ⟨41, _⟩ => ⟨S128x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1, .i32⟩
  | .hbm, ⟨53, _⟩ => ⟨S_, .i32⟩
  | .hbm, ⟨54, _⟩ => ⟨S1600000x1, .i32⟩
  | .hbm, ⟨55, _⟩ => ⟨S1600000x1, .i1⟩
  | .hbm, ⟨56, _⟩ => ⟨S1x1, .i32⟩
  | .hbm, ⟨57, _⟩ => ⟨S1600000x1, .i32⟩
  | .hbm, ⟨58, _⟩ => ⟨S1600000x1, .i1⟩
  | .hbm, ⟨59, _⟩ => ⟨S1600000x1, .i1⟩
  | .hbm, ⟨60, _⟩ => ⟨S_, .i1⟩
  | .hbm, ⟨61, _⟩ => ⟨S1600000, .i1⟩
  | .hbm, ⟨62, _⟩ => ⟨S1600000x64, .f32⟩
  | .hbm, ⟨63, _⟩ => ⟨S1600000x64, .i1⟩
  | .hbm, ⟨64, _⟩ => ⟨S_, .f32⟩
  | .hbm, ⟨65, _⟩ => ⟨S1600000x64, .f32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S64x64, .f32⟩
  | .hbm, ⟨72, _⟩ => ⟨S64x64, .f32⟩
  | .hbm, ⟨73, _⟩ => ⟨S128x64, .f32⟩
  | .hbm, ⟨74, _⟩ => ⟨S1x64, .f32⟩
  | .hbm, ⟨75, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S128x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v13 : Ref sig .tc := ⟨.hbm, 66, rfl⟩
abbrev main_cst_0 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  transposes_S64x64_S64x64_1_0 : S64x64.Transposes [1, 0] S64x64
  concatenates_S64x64_S64x64_S128x64_d0 : Shape.Concatenates [S64x64, S64x64] S128x64 0
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v7) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1, .i32⟩
  | .hbm, ⟨21, _⟩ => ⟨S_, .i32⟩
  | .hbm, ⟨22, _⟩ => ⟨S1600000x1, .i32⟩
  | .hbm, ⟨23, _⟩ => ⟨S1600000x1, .i1⟩
  | .hbm, ⟨24, _⟩ => ⟨S1x1, .i32⟩
  | .hbm, ⟨25, _⟩ => ⟨S1600000x1, .i32⟩
  | .hbm, ⟨26, _⟩ => ⟨S1600000x1, .i1⟩
  | .hbm, ⟨27, _⟩ => ⟨S1600000x1, .i1⟩
  | .hbm, ⟨28, _⟩ => ⟨S_, .i1⟩
  | .hbm, ⟨29, _⟩ => ⟨S1600000, .i1⟩
  | .hbm, ⟨30, _⟩ => ⟨S1600000x64, .f32⟩
  | .hbm, ⟨31, _⟩ => ⟨S1600000x64, .i1⟩
  | .hbm, ⟨32, _⟩ => ⟨S_, .f32⟩
  | .hbm, ⟨33, _⟩ => ⟨S1600000x64, .f32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S64x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1, .i32⟩
  | .hbm, ⟨59, _⟩ => ⟨S_, .i32⟩
  | .hbm, ⟨60, _⟩ => ⟨S1600000x1, .i32⟩
  | .hbm, ⟨61, _⟩ => ⟨S1600000x1, .i1⟩
  | .hbm, ⟨62, _⟩ => ⟨S1x1, .i32⟩
  | .hbm, ⟨63, _⟩ => ⟨S1600000x1, .i32⟩
  | .hbm, ⟨64, _⟩ => ⟨S1600000x1, .i1⟩
  | .hbm, ⟨65, _⟩ => ⟨S1600000x1, .i1⟩
  | .hbm, ⟨66, _⟩ => ⟨S_, .i1⟩
  | .hbm, ⟨67, _⟩ => ⟨S1600000, .i1⟩
  | .hbm, ⟨68, _⟩ => ⟨S1600000x64, .f32⟩
  | .hbm, ⟨69, _⟩ => ⟨S1600000x64, .i1⟩
  | .hbm, ⟨70, _⟩ => ⟨S_, .f32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S64x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S64x64, .f32⟩
  | .hbm, ⟨83, _⟩ => ⟨S100000x64, .f32⟩
  | .hbm, ⟨84, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_call1_cst : Ref sig .tc := ⟨.hbm, 47, rfl⟩
abbrev main_call1_v0 : Ref sig .tc := ⟨.hbm, 48, rfl⟩
abbrev main_v16 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_cst : Ref sig .tc := ⟨.hbm, 70, rfl⟩
abbrev main_call2_v15 : Ref sig .tc := ⟨.hbm, 71, rfl⟩
abbrev main_v17 : Ref sig .tc := ⟨.hbm, 72, rfl⟩
abbrev main_cst_0 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run with every buffer named.  The program is seven segments: host operations, the
  first layer's pipelined region, host operations, the second layer's region.  Run from any memory, every
  weakly fair execution terminates and each unscoped buffer ends at the last boundary's contents: the fold of
  the host operations through the two regions' write-backs.  The result buffer and the eight argument buffers
  are read from it.
-/
import proofs.«154738_j18545668784680_2_alg».proof.Proof.Gen.KernelIdeal.Frame

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer ends at
    the last boundary's contents of it, and the argument buffers end as launched. -/
theorem run_result : θ_run defs (onTc (τ := τ) (main (F := F))) ⟨m, fun _ => 0, ρ⟩ (fun r => ∀ c : Dev nD,
      r.2.mem ((c.tc : Thread nD τ).loc main_v21) = W7 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v21 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.HandRun

end
-- ==== Proof.LibPlainDot.lean ====
/-
  A plain matrix product read at one entry.  For an M×K matrix times a K×N matrix (contract the left
  operand's axis 1 with the right operand's axis 0, no batch axes) the contraction index has one
  coordinate, so the sum over it is a sum over `Fin K`: entry (a, b) is `∑ c, l (a, c) · r (c, b)`.
  Stated for the contraction sum itself, for a kernel's matmul into a zero accumulator, and for the host's
  dot_general; each for any record of dimension numbers that IS the plain one.  Also: a sum over
  `Fin (K₁ + K₂)` of a two-piece family is the sum of the two pieces' sums.  At the ideal values.
-/
import Idealize.ShloMosaic.Lib.ValueIdx
import Idealize.ShloMosaic.Lib.StackMember
import Idealize.ShloMosaic.PureOps.Ideal.Laws

noncomputable section

namespace Cert.LibPlainDot

open Idealize.ShloMosaic Idealize.ShloMosaic.ValueIdx

/-- The contraction sum of the plain M×K by K×N product at entry (a, b) is the sum over the shared
    coordinate. -/
theorem contr_sum {M K N : Nat} {φ₁ φ₂ : FTy}
    (l : FVec Ideal ⟨2, ![M, K]⟩ φ₁) (r : FVec Ideal ⟨2, ![K, N]⟩ φ₂) (a : Fin M) (b : Fin N) :
    ∑ k : (DotDims.plain M K N).contr.Idx,
        l ((DotDims.plain M K N).lhsIdx (ix2 a b) k) * r ((DotDims.plain M K N).rhsIdx (ix2 a b) k)
      = ∑ c : Fin K, l (ix2 a c) * r (ix2 c b) := by
  have h := StackMember.dotGeneral_plain_apply (m := M) (n := N) (k := K) none l r a b
  change FloatOps.dotGeneral _ none _ l r (ix2 a b) = _ at h
  rw [Ideal.dotGeneral_apply] at h
  exact h

/-- A kernel's matmul into the zero accumulator, for dimension numbers that are the plain ones: entry (a, b)
    is the sum over the shared coordinate of the products. -/
theorem matmul_zero_apply {M K N : Nat} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (a : Fin M) (b : Fin N) :
    matmul D prec l r (constant (F := Ideal) ⟨2, ![M, N]⟩ .f32 0x00000000#32) (ix2 a b)
      = ∑ c : Fin K, l (ix2 a c) * r (ix2 c b) := by
  subst hD
  exact (Ideal.matmul_constant_zero_apply _ prec l r (ix2 a b)).trans (contr_sum l r a b)

/-- The host's dot_general, for dimension numbers that are the plain ones, at entry (a, b). -/
theorem dotGeneral_apply {M K N : Nat} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (a : Fin M) (b : Fin N) :
    Host.dotGeneral D prec l r (ix2 a b) = ∑ c : Fin K, l (ix2 a c) * r (ix2 c b) := by
  subst hD
  exact StackMember.dotGeneral_plain_apply prec l r a b

/-- A sum over `Fin (K₁ + K₂)` splits into the sums over its first `K₁` and its last `K₂` positions. -/
theorem sum_fin_add {β : Type*} [AddCommMonoid β] (K₁ K₂ : Nat) (f : Fin (K₁ + K₂) → β) :
    ∑ k : Fin (K₁ + K₂), f k = ∑ k : Fin K₁, f (Fin.castAdd K₂ k) + ∑ k : Fin K₂, f (Fin.natAdd K₁ k) :=
  Fin.sum_univ_add f

end Cert.LibPlainDot

end
-- ==== Proof.Layer.lean ====
/-
  One graph-convolution layer, entry by entry, at the ideal values.

  The kernel's body computes, for a block of 5000 rows, the product of the row block [agg | x] (the
  aggregated neighbour features and the node's own features side by side, 128 columns) with the stacked
  weights [W_relᵀ ; W_rootᵀ] (128 rows), adds the bias row, and in the first layer takes the maximum with
  zero.  Entry (p, q) of that is
      act ((∑ k < 64, agg (p, k) · wc (k, q) + ∑ k < 64, x (p, k) · wc (64 + k, q)) + b2 (0, q)),
  because a sum over the 128 shared positions is the sum over the first 64 plus the sum over the last 64,
  the concatenation reading its first piece on the first and its second piece on the last.

  The reference computes (agg · W_relᵀ + b) + x · W_rootᵀ.  With wc the two transposes stacked and b2 the
  bias as a row, the two are the same extended real: the products are the same products, and
  (A + B) + c = (A + c) + B holds in every commutative additive monoid, so also at the infinities.
-/
import proofs.«154738_j18545668784680_2_alg».proof.Proof.Gen.KernelIdeal.Skeleton
import proofs.«154738_j18545668784680_2_alg».proof.Proof.Gen.ReferenceIdeal
import proofs.«154738_j18545668784680_2_alg».proof.Proof.LibPlainDot
import Idealize.ShloMosaic.Lib.Pipeline.Value
import Idealize.ShloMosaic.Lib.ValueLayout
import Idealize.ShloMosaic.Lib.KernelVsHost

noncomputable section

namespace Cert.GConv

open Idealize.ShloMosaic Idealize.ShloMosaic.ValueIdx Cert.KernelIdeal Cert.KernelIdeal.Gen

/-- Position `k` of the first 64 of the 128 shared positions. -/
def lo (k : Fin 64) : Fin 128 := ⟨k.val, by omega⟩
/-- Position `64 + k`: one of the last 64 of the 128 shared positions. -/
def hi (k : Fin 64) : Fin 128 := ⟨64 + k.val, by omega⟩

/-- A sum over the 128 shared positions is the sum over the first 64 plus the sum over the last 64. -/
theorem sum128 {β : Type*} [AddCommMonoid β] (f : Fin 128 → β) :
    ∑ c : Fin 128, f c = ∑ k : Fin 64, f (lo k) + ∑ k : Fin 64, f (hi k) :=
  LibPlainDot.sum_fin_add 64 64 f

/-- Entry `q` of one output row before the activation, from the row of aggregated features `ra`, the row of
    own features `rx`, the stacked weights and the bias row. -/
def rowLin (ra rx : Fin 64 → EReal) (wc : S128x64.Idx → EReal) (b2 : S1x64.Idx → EReal) (q : Fin 64) : EReal :=
  (∑ k : Fin 64, ra k * wc (ix2 (lo k) q) + ∑ k : Fin 64, rx k * wc (ix2 (hi k) q)) + b2 (ix2 (0 : Fin 1) q)

/-- The activation: the first layer's maximum with the float zero, the second layer's identity. -/
def act (relu : Bool) (v : EReal) : EReal := if relu then max v (Ideal.ofBits .f32 0x00000000#32) else v

/-- One layer's output at row `r`, column `q`, from the whole arrays. -/
def layerAt (relu : Bool) (A X : S100000x64.Idx → EReal) (wc : S128x64.Idx → EReal) (b2 : S1x64.Idx → EReal)
    (r : Fin 100000) (q : Fin 64) : EReal :=
  act relu (rowLin (fun k => A (ix2 r k)) (fun k => X (ix2 r k)) wc b2 q)

/-- One layer's output array. -/
def layerArr (relu : Bool) (A X : S100000x64.Idx → EReal) (wc : S128x64.Idx → EReal) (b2 : S1x64.Idx → EReal) :
    S100000x64.Idx → EReal :=
  fun i => layerAt relu A X wc b2 (i 0) (i 1)

/-- The side-by-side row block [x0 | x1] read in its first 64 columns. -/
theorem cat_lo (x0 x1 : FVec Ideal S5000x64 .bf16) (p : Fin 5000) (k : Fin 64) :
    concatenate S5000x128 1 [⟨S5000x64, x0⟩, ⟨S5000x64, x1⟩] Facts₀.concatenates_S5000x64_S5000x64_S5000x128_d1 (ix2 p (lo k))
      = x0 (ix2 p k) :=
  concatenate_pair_apply_left (1 : Fin 2) x0 x1 _ (ix2 p (lo k)) rfl (ix2 p k)
    (fun b => match b with | ⟨0, _⟩ => rfl | ⟨1, _⟩ => rfl)

/-- The side-by-side row block [x0 | x1] read in its last 64 columns. -/
theorem cat_hi (x0 x1 : FVec Ideal S5000x64 .bf16) (p : Fin 5000) (k : Fin 64) :
    concatenate S5000x128 1 [⟨S5000x64, x0⟩, ⟨S5000x64, x1⟩] Facts₀.concatenates_S5000x64_S5000x64_S5000x128_d1 (ix2 p (hi k))
      = x1 (ix2 p k) :=
  concatenate_pair_apply_right (1 : Fin 2) x0 x1 _ (ix2 p (hi k)) rfl rfl (ix2 p k)
    (fun b hb => match b with | ⟨0, _⟩ => rfl | ⟨1, _⟩ => absurd rfl hb)
    (by show k.val + 64 = 64 + k.val; omega)

/-- The body's matrix product at entry (p, q): the sum over the first 64 shared positions of the aggregated
    features' products plus the sum over the last 64 of the own features' products. -/
theorem body_dot (x0 x1 : FVec Ideal S5000x64 .bf16) (w : FVec Ideal S128x64 .bf16) (p : Fin 5000) (q : Fin 64) :
    matmul dot_S5000x128_S128x64_S5000x64_1_0_0_1_n_n none
        (concatenate S5000x128 1 [⟨S5000x64, x0⟩, ⟨S5000x64, x1⟩] Facts₀.concatenates_S5000x64_S5000x64_S5000x128_d1)
        w (constant (F := Ideal) S5000x64 .f32 0x00000000#32) (ix2 p q)
      = ∑ k : Fin 64, x0 (ix2 p k) * w (ix2 (lo k) q) + ∑ k : Fin 64, x1 (ix2 p k) * w (ix2 (hi k) q) := by
  refine (LibPlainDot.matmul_zero_apply _ rfl none _ w p q).trans ?_
  rw [sum128]
  refine congrArg₂ (· + ·) (Finset.sum_congr rfl fun k _ => ?_) (Finset.sum_congr rfl fun k _ => ?_)
  · rw [cat_lo]
  · rw [cat_hi]

/-- THE FIRST LAYER'S BODY at entry (p, q) of its block: the maximum with zero of the row's linear form. -/
theorem pay0_apply (x0 x1 : Vec Ideal S5000x64 .f32) (x2 : Vec Ideal S128x64 .f32) (x3 : Vec Ideal S1x64 .f32)
    (p : Fin 5000) (q : Fin 64) :
    k0_pay1 (F := Ideal) x0 x1 x2 x3 (ix2 p q)
      = act true (rowLin (fun k => x0 (ix2 p k)) (fun k => x1 (ix2 p k)) x2 x3 q) := by
  unfold k0_pay1 rowLin act
  dsimp only
  rw [if_pos rfl]
  refine congrArg₂ max (congrArg₂ (· + ·) ?_ ?_) ?_
  · refine (body_dot _ _ _ p q).trans ?_
    rw [shapeCast_self x0, shapeCast_self x2]
    rfl
  · refine (broadcastTo_1b_ab_apply _ _ p q).trans ?_
    rw [shapeCast_self x3]
  · rfl

/-- THE SECOND LAYER'S BODY at entry (p, q) of its block: the row's linear form. -/
theorem pay1_apply (x0 x1 : Vec Ideal S5000x64 .f32) (x2 : Vec Ideal S128x64 .f32) (x3 : Vec Ideal S1x64 .f32)
    (p : Fin 5000) (q : Fin 64) :
    k1_pay1 (F := Ideal) x0 x1 x2 x3 (ix2 p q)
      = act false (rowLin (fun k => x0 (ix2 p k)) (fun k => x1 (ix2 p k)) x2 x3 q) := by
  unfold k1_pay1 rowLin act
  dsimp only
  rw [if_neg (by decide)]
  refine congrArg₂ (· + ·) ?_ ?_
  · refine (body_dot _ _ _ p q).trans ?_
    rw [shapeCast_self x0, shapeCast_self x1, shapeCast_self x2]
    rfl
  · refine (broadcastTo_1b_ab_apply _ _ p q).trans ?_
    rw [shapeCast_self x3]

end Cert.GConv

end
-- ==== Proof.Blocks.lean ====
/-
  From blocks to arrays.  Each region walks twenty grid points; point `t` stages block `t` (5000 rows) of
  the aggregate and of the node features, the whole stacked weights and the whole bias row, runs the body,
  and writes the body's result back as block `t` of the output.  Since the body's result at row `p` depends
  only on row `p` of the two staged blocks, what each point writes is a block of ONE whole-array function of
  the arrays the region found (the layer's output, entry by entry); the twenty blocks tile the array, so the
  array ends holding that function.
-/
import proofs.«154738_j18545668784680_2_alg».proof.Proof.Gen.KernelIdeal.Frame
import proofs.«154738_j18545668784680_2_alg».proof.Proof.Layer
import Idealize.ShloMosaic.Lib.Pipeline.Value
import Idealize.ShloMosaic.Lib.ValueIdx

set_option maxRecDepth 16384

noncomputable section

namespace Cert.GConv

/-- The linear form of a row depends only on its five arguments. -/
theorem rowLin_congr {ra ra' rx rx' : Fin 64 → EReal} {wc wc' : Cert.KernelIdeal.S128x64.Idx → EReal}
    {b2 b2' : Cert.KernelIdeal.S1x64.Idx → EReal} {q q' : Fin 64}
    (h0 : ra = ra') (h1 : rx = rx') (h2 : wc = wc') (h3 : b2 = b2') (h4 : q = q') :
    rowLin ra rx wc b2 q = rowLin ra' rx' wc' b2' q' := by
  subst h0 h1 h2 h3 h4; rfl

end Cert.GConv

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GConv

variable (V : (c : Dev nD) → (b : Ref sig .tc) → Buf (Elt Ideal) ((c : Thread nD τ).loc b))

theorem hz : (![0, 0] : Fin 2 → Nat) = fun _ => 0 := funext fun a => by fin_cases a <;> rfl

/-! ## Layer 1's region -/

/-- The printed index maps over the grid: at every point the two row-blocked inputs sit on the output's block
    of rows, the weights and the bias are their whole arrays, and the output's blocks are the twenty blocks of
    5000 rows. -/
theorem idx_facts0 : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 19 ∧ win0_4.index t (1 : Fin 2) = 0 :=
  (by decide +kernel : ∀ t : Fin grid0.N, _)

/-- Every block of rows is some point's. -/
theorem idx_onto0 : ∀ q0 : Fin 20, ∃ t : Fin cfg0.N, win0_4.index t = ![q0.val, 0] :=
  (by decide +kernel : ∀ q0 : Fin 20, ∃ t : Fin grid0.N, win0_4.index t = ![q0.val, 0])

/-- WHAT POINT `t` WRITES BACK is block `t` of the layer's output array, computed from the arrays as the region
    finds them: row `p` of the block is row `5000 · (block index) + p` of the aggregate and of the features, and
    every point reads the whole weights and bias. -/
theorem flushed0_eq (c : Dev nD) (t : Fin cfg0.N) :
    (dat0 (F := Ideal) V c).flushed 4 t = ((cfg0.win 4).blk t).view.read (Elt Ideal)
      (layerArr true (V c main_v7) (V c main_arg0) (V c main_v10) (V c main_v11)) := by
  show (cfg0.win 4).cut (grid0.coords t) ((dat0 V c).after 4 t) = _
  rw [after0_4]
  unfold out0_4
  rw [View.canon_unit_zero hz]
  simp only [View.ld_unit_zero (S := S5000x64) hz, View.ld_unit_zero (S := S128x64) hz, View.ld_unit_zero (S := S1x64) hz]
  obtain ⟨e00, e01, e10, e11, e20, e21, e30, e31, e40, e41⟩ := idx_facts0 t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (iblk0 V c 3 t) (ix2 p q)
    = layerArr true (V c main_v7) (V c main_arg0) (V c main_v10) (V c main_v11) (((cfg0.win 4).blk t).view.emb (ix2 p q))
  rw [pay0_apply]
  unfold layerArr layerAt
  have hrow : ∀ k : Fin 64, ((cfg0.win 0).blk t).view.emb (ix2 p k)
      = ix2 ((((cfg0.win 4).blk t).view.emb (ix2 p q)) 0) k := by
    intro k; funext a; apply Fin.ext
    match a with
    | ⟨0, _⟩ => show win0_0.index t (0 : Fin 2) * 5000 + 1 * p.val = win0_4.index t (0 : Fin 2) * 5000 + 1 * p.val; omega
    | ⟨1, _⟩ => show win0_0.index t (1 : Fin 2) * 64 + 1 * k.val = k.val; omega
  have hrow1 : ∀ k : Fin 64, ((cfg0.win 1).blk t).view.emb (ix2 p k)
      = ix2 ((((cfg0.win 4).blk t).view.emb (ix2 p q)) 0) k := by
    intro k; funext a; apply Fin.ext
    match a with
    | ⟨0, _⟩ => show win0_1.index t (0 : Fin 2) * 5000 + 1 * p.val = win0_4.index t (0 : Fin 2) * 5000 + 1 * p.val; omega
    | ⟨1, _⟩ => show win0_1.index t (1 : Fin 2) * 64 + 1 * k.val = k.val; omega
  have hw : ∀ y : S128x64.Idx, ((cfg0.win 2).blk t).view.emb y = y := by
    intro y; funext a; apply Fin.ext
    match a with
    | ⟨0, _⟩ => show win0_2.index t (0 : Fin 2) * 128 + 1 * (y 0).val = (y 0).val; omega
    | ⟨1, _⟩ => show win0_2.index t (1 : Fin 2) * 64 + 1 * (y 1).val = (y 1).val; omega
  have hb : ∀ y : S1x64.Idx, ((cfg0.win 3).blk t).view.emb y = y := by
    intro y; funext a; apply Fin.ext
    match a with
    | ⟨0, _⟩ => show win0_3.index t (0 : Fin 2) * 1 + 1 * (y 0).val = (y 0).val; omega
    | ⟨1, _⟩ => show win0_3.index t (1 : Fin 2) * 64 + 1 * (y 1).val = (y 1).val; omega
  have hq : ((((cfg0.win 4).blk t).view.emb (ix2 p q)) 1 : Fin 64) = q := by
    apply Fin.ext
    show win0_4.index t (1 : Fin 2) * 64 + 1 * q.val = q.val; omega
  refine congrArg (act true) (rowLin_congr (funext fun k => ?_) (funext fun k => ?_) (funext fun y => ?_) (funext fun y => ?_) hq.symm)
  · show V c main_v7 (((cfg0.win 0).blk t).view.emb (ix2 p k)) = _
    rw [hrow k]; rfl
  · show V c main_arg0 (((cfg0.win 1).blk t).view.emb (ix2 p k)) = _
    rw [hrow1 k]; rfl
  · show V c main_v10 (((cfg0.win 2).blk t).view.emb y) = _
    rw [hw y]
  · show V c main_v11 (((cfg0.win 3).blk t).view.emb y) = _
    rw [hb y]

/-- An index of the output array is in point `t`'s block iff each coordinate is in the block's range. -/
theorem mem_blk0 (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v12).slice (win0_4.rect t)).set ↔ _
  rw [View.set_slice_whole, Rect.mem_set_unit]
  exact Iff.rfl

/-- The twenty blocks of 5000 rows tile the array: row `r` is in block `r / 5000`. -/
theorem cover0 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto0 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- THE OUTPUT ARRAY after the region: the layer's output computed from the arrays as the region finds them. -/
theorem final0 (c : Dev nD) :
    (dat0 (F := Ideal) V c).arrAt 4 cfg0.N = layerArr true (V c main_v7) (V c main_arg0) (V c main_v10) (V c main_v11) :=
  (dat0 (F := Ideal) V c).arrAt_eq_of_cover 4 _ (fun t _ => flushed0_eq V c t) cover0

/-! ## Layer 2's region -/

/-- The printed index maps over the grid: at every point the two row-blocked inputs sit on the output's block
    of rows, the weights and the bias are their whole arrays, and the output's blocks are the twenty blocks of
    5000 rows. -/
theorem idx_facts1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 19 ∧ win1_4.index t (1 : Fin 2) = 0 :=
  (by decide +kernel : ∀ t : Fin grid1.N, _)

/-- Every block of rows is some point's. -/
theorem idx_onto1 : ∀ q0 : Fin 20, ∃ t : Fin cfg1.N, win1_4.index t = ![q0.val, 0] :=
  (by decide +kernel : ∀ q0 : Fin 20, ∃ t : Fin grid1.N, win1_4.index t = ![q0.val, 0])

/-- WHAT POINT `t` WRITES BACK is block `t` of the layer's output array, computed from the arrays as the region
    finds them: row `p` of the block is row `5000 · (block index) + p` of the aggregate and of the features, and
    every point reads the whole weights and bias. -/
theorem flushed1_eq (c : Dev nD) (t : Fin cfg1.N) :
    (dat1 (F := Ideal) V c).flushed 4 t = ((cfg1.win 4).blk t).view.read (Elt Ideal)
      (layerArr false (V c main_v16) (V c main_v12) (V c main_v19) (V c main_v20)) := by
  show (cfg1.win 4).cut (grid1.coords t) ((dat1 V c).after 4 t) = _
  rw [after1_4]
  unfold out1_4
  rw [View.canon_unit_zero hz]
  simp only [View.ld_unit_zero (S := S5000x64) hz, View.ld_unit_zero (S := S128x64) hz, View.ld_unit_zero (S := S1x64) hz]
  obtain ⟨e00, e01, e10, e11, e20, e21, e30, e31, e40, e41⟩ := idx_facts1 t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 3 t) (ix2 p q)
    = layerArr false (V c main_v16) (V c main_v12) (V c main_v19) (V c main_v20) (((cfg1.win 4).blk t).view.emb (ix2 p q))
  rw [pay1_apply]
  unfold layerArr layerAt
  have hrow : ∀ k : Fin 64, ((cfg1.win 0).blk t).view.emb (ix2 p k)
      = ix2 ((((cfg1.win 4).blk t).view.emb (ix2 p q)) 0) k := by
    intro k; funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * k.val = k.val; omega
  have hrow1 : ∀ k : Fin 64, ((cfg1.win 1).blk t).view.emb (ix2 p k)
      = ix2 ((((cfg1.win 4).blk t).view.emb (ix2 p q)) 0) k := by
    intro k; funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 64 + 1 * k.val = k.val; omega
  have hw : ∀ y : S128x64.Idx, ((cfg1.win 2).blk t).view.emb y = y := by
    intro y; funext a; apply Fin.ext
    match a with
    | ⟨0, _⟩ => show win1_2.index t (0 : Fin 2) * 128 + 1 * (y 0).val = (y 0).val; omega
    | ⟨1, _⟩ => show win1_2.index t (1 : Fin 2) * 64 + 1 * (y 1).val = (y 1).val; omega
  have hb : ∀ y : S1x64.Idx, ((cfg1.win 3).blk t).view.emb y = y := by
    intro y; funext a; apply Fin.ext
    match a with
    | ⟨0, _⟩ => show win1_3.index t (0 : Fin 2) * 1 + 1 * (y 0).val = (y 0).val; omega
    | ⟨1, _⟩ => show win1_3.index t (1 : Fin 2) * 64 + 1 * (y 1).val = (y 1).val; omega
  have hq : ((((cfg1.win 4).blk t).view.emb (ix2 p q)) 1 : Fin 64) = q := by
    apply Fin.ext
    show win1_4.index t (1 : Fin 2) * 64 + 1 * q.val = q.val; omega
  refine congrArg (act false) (rowLin_congr (funext fun k => ?_) (funext fun k => ?_) (funext fun y => ?_) (funext fun y => ?_) hq.symm)
  · show V c main_v16 (((cfg1.win 0).blk t).view.emb (ix2 p k)) = _
    rw [hrow k]; rfl
  · show V c main_v12 (((cfg1.win 1).blk t).view.emb (ix2 p k)) = _
    rw [hrow1 k]; rfl
  · show V c main_v19 (((cfg1.win 2).blk t).view.emb y) = _
    rw [hw y]
  · show V c main_v20 (((cfg1.win 3).blk t).view.emb y) = _
    rw [hb y]

/-- An index of the output array is in point `t`'s block iff each coordinate is in the block's range. -/
theorem mem_blk1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v21).slice (win1_4.rect t)).set ↔ _
  rw [View.set_slice_whole, Rect.mem_set_unit]
  exact Iff.rfl

/-- The twenty blocks of 5000 rows tile the array: row `r` is in block `r / 5000`. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE OUTPUT ARRAY after the region: the layer's output computed from the arrays as the region finds them. -/
theorem final1 (c : Dev nD) :
    (dat1 (F := Ideal) V c).arrAt 4 cfg1.N = layerArr false (V c main_v16) (V c main_v12) (V c main_v19) (V c main_v20) :=
  (dat1 (F := Ideal) V c).arrAt_eq_of_cover 4 _ (fun t _ => flushed1_eq V c t) cover1

end Cert.KernelIdeal.Blocks

end
-- ==== Proof.HostChain.lean ====
/-
  The host side of a layer, as functions of the arrays.

  Both programs gather the source nodes' rows and add them at the destination nodes with the same host
  operations: the edge list's two rows as flat index vectors; a negative index wrapped once by the number
  of nodes; a row gathered at every edge, replaced by the fill value where the wrapped index is out of
  range; the gathered rows added into a zero array at the destination indices.  These are named here once,
  so that neither program's proof opens them: what matters is only that both apply THE SAME function.
  Also named: the weights as the kernel takes them (the two transposes stacked, the bias as one row), and
  the reference's layer (two matrix products and a bias, then the maximum with zero in the first layer).
-/
import proofs.«154738_j18545668784680_2_alg».proof.Proof.Gen.KernelIdeal

noncomputable section

namespace Cert.GConv

open Idealize.ShloMosaic Cert.KernelIdeal Cert.KernelIdeal.Facts₀

variable {F : FTy → Type} [FloatOps F]

/-- The edges' source nodes: row 0 of the edge list, flat. -/
def srcOf (e : IVec S2x1600000 32) : IVec S1600000 32 :=
  shapeCast S1600000 (extractStridedSlice S1x1600000 ![0, 0] e slices_S2x1600000_S1x1600000_0_0) shapeCasts_S1x1600000_S1600000

/-- The edges' destination nodes: row 1 of the edge list, flat. -/
def dstOf (e : IVec S2x1600000 32) : IVec S1600000 32 :=
  shapeCast S1600000 (extractStridedSlice S1x1600000 ![1, 0] e slices_S2x1600000_S1x1600000_1_0) shapeCasts_S1x1600000_S1600000

/-- A node index with a negative value wrapped once by the number of nodes, as a column. -/
def wrapCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- One row of `x` per edge: the row at the edge's wrapped index, the fill value where that index is not a node. -/
def takeRows (x : FVec F S100000x64 .f32) (s : IVec S1600000 32) : FVec F S1600000x64 .f32 :=
  select
    (broadcastInDim S1600000x64 ![0] bcast_S1600000_S1600000x64_0
      (Host.reduce IntOp.andi
        (andi (cmpi .sge (wrapCol s) (broadcastInDim S1600000x1 ![] bcast_S_S1600000x1 (constantI S_ 32 0#32)))
          (cmpi .sle (wrapCol s) (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_))
    (Host.gather gather_S100000x64_S1600000x1_S1600000x64_1_0_n_n_0_1_164 x (wrapCol s))
    (broadcastInDim S1600000x64 ![] bcast_S_S1600000x64 (constant S_ .f32 0x7FC00000#32))

/-- Every edge's source row of `x` (sources `s`) added into a zero array at the edge's destination node (`d`). -/
def aggFrom (x : FVec F S100000x64 .f32) (s d : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (takeRows x s)

/-- The neighbour aggregate: every edge's source row of `x` added at the edge's destination node. -/
def aggOf (x : FVec F S100000x64 .f32) (e : IVec S2x1600000 32) : FVec F S100000x64 .f32 :=
  aggFrom x (srcOf e) (dstOf e)

/-- The weights as the kernel takes them: the neighbour weights' transpose above the root weights' transpose. -/
def stackW (Wrel Wroot : FVec F S64x64 .f32) : FVec F S128x64 .f32 :=
  concatenate S128x64 0 [⟨S64x64, transpose S64x64 [1, 0] Wrel transposes_S64x64_S64x64_1_0⟩,
    ⟨S64x64, transpose S64x64 [1, 0] Wroot transposes_S64x64_S64x64_1_0⟩] concatenates_S64x64_S64x64_S128x64_d0

/-- The bias as one row. -/
def rowB (b : FVec F S64 .f32) : FVec F S1x64 .f32 := shapeCast S1x64 b shapeCasts_S64_S1x64

end Cert.GConv

end
-- ==== Proof.LibTRef.lean ====
/-
  A typed reference's two transports cancel.  A module-local function's operation writes its value into the
  buffer through the reference's transport to the buffer's type, and the next operation reads it back through
  the transport from it; the two are casts along one equation and its inverse, so reading back what was
  written gives the value.
-/
import Idealize.ShloMosaic.Lib.StableHlo

namespace Cert.LibTRef

open Idealize.ShloMosaic

/-- Contents written through a typed reference and read back through it are the contents. -/
theorem ofBuf_toBuf {sg : RefSig} {T : BufTy} {Val : EltTy → Type} (x : StableHlo.TRef sg T) (v : T.Contents Val) :
    x.ofBuf (x.toBuf v) = v := by
  obtain ⟨r, h, h2, h3⟩ := x
  subst h
  rfl

end Cert.LibTRef
-- ==== Proof.KernelValue.lean ====
/-
  What the kernel program computes, as one term of its arguments.  The result buffer at the end is the second
  region's output array: the second layer of the arrays that region found.  Those are read back through the
  host operations between the regions (the aggregate of the first region's output, that output itself, the
  second layer's stacked weights and bias row), the first region's output array is the first layer of the
  arrays IT found, and those are read back through the host operations before it to the launch memory.
-/
import proofs.«154738_j18545668784680_2_alg».proof.Proof.Gen.KernelIdeal.Frame
import proofs.«154738_j18545668784680_2_alg».proof.Proof.Blocks
import proofs.«154738_j18545668784680_2_alg».proof.Proof.HostChain
import proofs.«154738_j18545668784680_2_alg».proof.Proof.LibTRef
import Idealize.ShloMosaic.Lib.StableHlo.Run

set_option maxRecDepth 16384

noncomputable section

namespace Cert.KernelIdeal.HandValue

open Idealize.ShloMosaic Idealize.ShloMosaic.TcCoe
open Idealize.SL Idealize.SL.Sem
open Idealize.ShloMosaic.Pipeline (Dat Cfg Window)
open Cert.KernelIdeal Cert.KernelIdeal.Gen Cert.GConv

/-! ## The host operations, read over any contents -/

section Host
variable {F : FTy → Type} [FloatOps F] (Wv : Valuation τ sig (Elt F))

/-- After the host operations before the first region, from contents `Wv`. -/
abbrev pre0 : Valuation τ sig (Elt F) :=
  StableHlo.after hostOps0_2 (StableHlo.after hostOps0_1 (StableHlo.after hostOps0 Wv))

/-- After the host operations between the regions, from contents `Wv`. -/
abbrev pre1 : Valuation τ sig (Elt F) := StableHlo.after hostOps1_1 (StableHlo.after hostOps1 Wv)

attribute [local irreducible] Host.reduce Host.gather Host.scatterAdd

theorem pre0_v7 : pre0 Wv (Proc.devRef .tc main_v7) = aggOf (Wv (Proc.devRef .tc main_arg0)) (Wv (Proc.devRef .tc main_arg1)) := by
  simp only [pre0, hostOps0, hostOps0_1, hostOps0_2]
  open Idealize.ShloMosaic.StableHlo in after_results_simp
  simp only [Cert.LibTRef.ofBuf_toBuf]
  rfl
theorem pre0_v10 : pre0 Wv (Proc.devRef .tc main_v10) = stackW (Wv (Proc.devRef .tc main_arg2)) (Wv (Proc.devRef .tc main_arg4)) := by
  simp only [pre0, hostOps0, hostOps0_1, hostOps0_2]
  open Idealize.ShloMosaic.StableHlo in after_results_simp
  rfl
theorem pre0_v11 : pre0 Wv (Proc.devRef .tc main_v11) = rowB (Wv (Proc.devRef .tc main_arg3)) := by
  simp only [pre0, hostOps0, hostOps0_1, hostOps0_2]
  open Idealize.ShloMosaic.StableHlo in after_results_simp
  rfl
theorem pre0_v1 : pre0 Wv (Proc.devRef .tc main_v1) = srcOf (Wv (Proc.devRef .tc main_arg1)) := by
  simp only [pre0, hostOps0, hostOps0_1, hostOps0_2]
  open Idealize.ShloMosaic.StableHlo in after_results_simp
  rfl
theorem pre0_v3 : pre0 Wv (Proc.devRef .tc main_v3) = dstOf (Wv (Proc.devRef .tc main_arg1)) := by
  simp only [pre0, hostOps0, hostOps0_1, hostOps0_2]
  open Idealize.ShloMosaic.StableHlo in after_results_simp
  rfl
theorem pre0_arg (a : Ref sig .tc) (ha : a = main_arg0 ∨ a = main_arg5 ∨ a = main_arg6 ∨ a = main_arg7) :
    pre0 Wv (Proc.devRef .tc a) = Wv (Proc.devRef .tc a) := by
  rcases ha with rfl | rfl | rfl | rfl <;>
  · simp only [pre0, hostOps0, hostOps0_1, hostOps0_2]
    open Idealize.ShloMosaic.StableHlo in after_results_simp

theorem pre1_v16 : pre1 Wv (Proc.devRef .tc main_v16)
    = aggFrom (Wv (Proc.devRef .tc main_v12)) (Wv (Proc.devRef .tc main_v1)) (Wv (Proc.devRef .tc main_v3)) := by
  simp only [pre1, hostOps1, hostOps1_1]
  open Idealize.ShloMosaic.StableHlo in after_results_simp
  simp only [Cert.LibTRef.ofBuf_toBuf]
  rfl
theorem pre1_v19 : pre1 Wv (Proc.devRef .tc main_v19) = stackW (Wv (Proc.devRef .tc main_arg5)) (Wv (Proc.devRef .tc main_arg7)) := by
  simp only [pre1, hostOps1, hostOps1_1]
  open Idealize.ShloMosaic.StableHlo in after_results_simp
  rfl
theorem pre1_v20 : pre1 Wv (Proc.devRef .tc main_v20) = rowB (Wv (Proc.devRef .tc main_arg6)) := by
  simp only [pre1, hostOps1, hostOps1_1]
  open Idealize.ShloMosaic.StableHlo in after_results_simp
  rfl
theorem pre1_v12 : pre1 Wv (Proc.devRef .tc main_v12) = Wv (Proc.devRef .tc main_v12) := by
  simp only [pre1, hostOps1, hostOps1_1]
  open Idealize.ShloMosaic.StableHlo in after_results_simp

end Host

/-! ## The result -/

/-- The kernel program's result as a term of its arguments: the second layer over the aggregate of the first
    layer's output. -/
def kerOut (x : FVec Ideal S100000x64 .f32) (e : IVec S2x1600000 32) (W2 : FVec Ideal S64x64 .f32) (b3 : FVec Ideal S64 .f32)
    (W4 W5 : FVec Ideal S64x64 .f32) (b6 : FVec Ideal S64 .f32) (W7 : FVec Ideal S64x64 .f32) : FVec Ideal S100000x64 .f32 :=
  layerArr false (aggOf (F := Ideal) (layerArr true (aggOf (F := Ideal) x e) x (stackW (F := Ideal) W2 W4) (rowB (F := Ideal) b3)) e)
    (layerArr true (aggOf (F := Ideal) x e) x (stackW (F := Ideal) W2 W4) (rowB (F := Ideal) b3)) (stackW (F := Ideal) W5 W7) (rowB (F := Ideal) b6)

variable (m : (ℓ : Loc nD τ sig) → Buf (Elt Ideal) ℓ) (ρ : Dev nD → PrngReg)

/-- The first region's output array, from the launch memory. -/
theorem W4_v12 (c : Dev nD) : W4 m ρ c (Proc.devRef .tc main_v12)
    = layerArr true (aggOf (F := Ideal) (m ((c : Thread nD τ).loc main_arg0)) (m ((c : Thread nD τ).loc main_arg1)))
        (m ((c : Thread nD τ).loc main_arg0))
        (stackW (F := Ideal) (m ((c : Thread nD τ).loc main_arg2)) (m ((c : Thread nD τ).loc main_arg4)))
        (rowB (F := Ideal) (m ((c : Thread nD τ).loc main_arg3))) := by
  refine (W4_arr m ρ c 4).trans ((Blocks.final0 (V3 m ρ) c).trans ?_)
  show layerArr true (pre0 (W0 m ρ c) (Proc.devRef .tc main_v7)) (pre0 (W0 m ρ c) (Proc.devRef .tc main_arg0))
    (pre0 (W0 m ρ c) (Proc.devRef .tc main_v10)) (pre0 (W0 m ρ c) (Proc.devRef .tc main_v11)) = _
  rw [pre0_v7, pre0_v10, pre0_v11, pre0_arg _ main_arg0 (Or.inl rfl)]

/-- A buffer no window of the first region writes is, after it, what it was before it. -/
theorem W4_keep (c : Dev nD) (b : Ref sig .tc) (hb : ∀ w, Pipeline.arrRef spec0 w ≠ b) :
    W4 m ρ c (Proc.devRef .tc b) = pre0 (W0 m ρ c) (Proc.devRef .tc b) := W4_of_ne m ρ c b hb

/-- THE RESULT BUFFER at the end of the run is `kerOut` of the launch memory's argument arrays. -/
theorem result_eq (c : Dev nD) : W7 m ρ c (Proc.devRef .tc main_v21)
    = kerOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W7_arr m ρ c 4).trans ((Blocks.final1 (V6 m ρ) c).trans ?_)
  show layerArr false (pre1 (W4 m ρ c) (Proc.devRef .tc main_v16)) (pre1 (W4 m ρ c) (Proc.devRef .tc main_v12))
    (pre1 (W4 m ρ c) (Proc.devRef .tc main_v19)) (pre1 (W4 m ρ c) (Proc.devRef .tc main_v20)) = _
  rw [pre1_v16, pre1_v12, pre1_v19, pre1_v20, W4_v12,
    W4_keep m ρ c main_v1 (by decide), W4_keep m ρ c main_v3 (by decide),
    W4_keep m ρ c main_arg5 (by decide), W4_keep m ρ c main_arg6 (by decide), W4_keep m ρ c main_arg7 (by decide),
    pre0_v1, pre0_v3, pre0_arg _ main_arg5 (Or.inr (Or.inl rfl)), pre0_arg _ main_arg6 (Or.inr (Or.inr (Or.inl rfl))),
    pre0_arg _ main_arg7 (Or.inr (Or.inr (Or.inr rfl)))]
  rfl

end Cert.KernelIdeal.HandValue

end
-- ==== Proof.RefRun.lean ====
/-
  The reference program's run, read back.  The reference is a straight line of host operations once the
  functions jax outlined (the two row gathers with their index clamping, the relu) are written at their call
  sites: 77 operations.  Every weakly fair execution runs them in order, so each buffer ends at the
  fold of the operations over the launch contents.
-/
import proofs.«154738_j18545668784680_2_alg».proof.ReferenceIdeal
import proofs.«154738_j18545668784680_2_alg».proof.Proof.Gen.ReferenceIdeal
import Idealize.ShloMosaic.Lib.StableHlo.Run
import Idealize.ShloMosaic.Lib.Pipeline.Regions

noncomputable section

namespace Cert.ReferenceIdeal.HandRun

open Idealize.ShloMosaic Idealize.SL.Sem Cert.ReferenceIdeal Cert.ReferenceIdeal.Facts₀

variable {F : FTy → Type} [FloatOps F]

/-- The reference's operations in program order, each outlined function's body written where it is called,
    over that call's own buffers. -/
abbrev ops : List (HloOp τ sig (Elt F)) :=
  [
    StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.TRef.nullary main_call0.c (constantI S_ 32 0#32),
    StableHlo.TRef.unary main_call0.c main_call0.v0 (broadcastInDim S1600000 ![] bcast_S_S1600000),
    StableHlo.TRef.binary (.of main_v1) main_call0.v0 main_call0.v1 (cmpi .slt),
    StableHlo.TRef.nullary main_call0.c_0 (constantI S_ 32 100000#32),
    StableHlo.TRef.unary main_call0.c_0 main_call0.v2 (broadcastInDim S1600000 ![] bcast_S_S1600000),
    StableHlo.TRef.binary (.of main_v1) main_call0.v2 main_call0.v3 addi,
    StableHlo.TRef.ternary main_call0.v1 main_call0.v3 (.of main_v1) main_call0.call0.v0 select,
    StableHlo.TRef.unary main_call0.call0.v0 main_call0.v5 (broadcastInDim S1600000x1 ![0] bcast_S1600000_S1600000x1_0),
    StableHlo.TRef.nullary main_call0.c_1 (constantI S1 32 99999#32),
    StableHlo.TRef.nullary main_call0.c_2 (constantI S_ 32 0#32),
    StableHlo.TRef.unary main_call0.c_2 main_call0.v6 (broadcastInDim S1600000x1 ![] bcast_S_S1600000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1600000x1 ![0, 1] bcast_S1x1_S1600000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1600000x1_S1600000_d1 h_S_),
    StableHlo.TRef.binary (.of main_arg0) main_call0.v5 main_call0.v13 (fun x i => Host.gather gather_S100000x64_S1600000x1_S1600000x64_1_0_n_n_0_1_164 x i),
    StableHlo.TRef.unary main_call0.v12 main_call0.v14 (broadcastInDim S1600000x64 ![0] bcast_S1600000_S1600000x64_0),
    StableHlo.TRef.nullary main_call0.cst (constant S_ .f32 0x7FC00000#32),
    StableHlo.TRef.unary main_call0.cst main_call0.v15 (broadcastInDim S1600000x64 ![] bcast_S_S1600000x64),
    StableHlo.TRef.ternary main_call0.v14 main_call0.v13 main_call0.v15 main_call0.v16 select,
    StableHlo.nullary main_cst (constant S_ .f32 0x00000000#32),
    StableHlo.unary main_cst main_v5 (broadcastInDim S100000x64 ![] bcast_S_S100000x64 : (⟨S_, .f32⟩ : BufTy).Contents (Elt F) → (⟨S100000x64, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg2 main_v8 ((transpose S64x64 [1, 0] · transposes_S64x64_S64x64_1_0) : (⟨S64x64, .f32⟩ : BufTy).Contents (Elt F) → (⟨S64x64, .f32⟩ : BufTy).Contents (Elt F)),
    StableHlo.binary main_v7 main_v8 main_v9 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S100000x64 ![0, 1] bcast_S1x64_S100000x64_0_1 : (⟨S1x64, .f32⟩ : BufTy).Contents (Elt F) → (⟨S100000x64, .f32⟩ : BufTy).Contents (Elt F)),
    StableHlo.binary main_v9 main_v11 main_v12 (addf : (⟨S100000x64, .f32⟩ : BufTy).Contents (Elt F) → (⟨S100000x64, .f32⟩ : BufTy).Contents (Elt F) → (⟨S100000x64, .f32⟩ : BufTy).Contents (Elt F)),
    StableHlo.unary main_arg4 main_v13 ((transpose S64x64 [1, 0] · transposes_S64x64_S64x64_1_0) : (⟨S64x64, .f32⟩ : BufTy).Contents (Elt F) → (⟨S64x64, .f32⟩ : BufTy).Contents (Elt F)),
    StableHlo.binary main_arg0 main_v13 main_v14 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v12 main_v14 main_v15 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v15) main_call1.v0 main_call1.v1 maximumf,
    StableHlo.TRef.nullary main_call2.c (constantI S_ 32 0#32),
    StableHlo.TRef.unary main_call2.c main_call2.v0 (broadcastInDim S1600000 ![] bcast_S_S1600000),
    StableHlo.TRef.binary (.of main_v1) main_call2.v0 main_call2.v1 (cmpi .slt),
    StableHlo.TRef.nullary main_call2.c_0 (constantI S_ 32 100000#32),
    StableHlo.TRef.unary main_call2.c_0 main_call2.v2 (broadcastInDim S1600000 ![] bcast_S_S1600000),
    StableHlo.TRef.binary (.of main_v1) main_call2.v2 main_call2.v3 addi,
    StableHlo.TRef.ternary main_call2.v1 main_call2.v3 (.of main_v1) main_call2.call0.v0 select,
    StableHlo.TRef.unary main_call2.call0.v0 main_call2.v5 (broadcastInDim S1600000x1 ![0] bcast_S1600000_S1600000x1_0),
    StableHlo.TRef.nullary main_call2.c_1 (constantI S1 32 99999#32),
    StableHlo.TRef.nullary main_call2.c_2 (constantI S_ 32 0#32),
    StableHlo.TRef.unary main_call2.c_2 main_call2.v6 (broadcastInDim S1600000x1 ![] bcast_S_S1600000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S1600000x1 ![0, 1] bcast_S1x1_S1600000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1600000x1_S1600000_d1 h_S_),
    StableHlo.TRef.binary (.of main_v16) main_call2.v5 main_call2.v13 (fun x i => Host.gather gather_S100000x64_S1600000x1_S1600000x64_1_0_n_n_0_1_164 x i),
    StableHlo.TRef.unary main_call2.v12 main_call2.v14 (broadcastInDim S1600000x64 ![0] bcast_S1600000_S1600000x64_0),
    StableHlo.TRef.nullary main_call2.cst (constant S_ .f32 0x7FC00000#32),
    StableHlo.TRef.unary main_call2.cst main_call2.v15 (broadcastInDim S1600000x64 ![] bcast_S_S1600000x64),
    StableHlo.TRef.ternary main_call2.v14 main_call2.v13 main_call2.v15 main_call2.v16 select,
    StableHlo.nullary main_cst_0 (constant S_ .f32 0x00000000#32),
    StableHlo.unary main_cst_0 main_v18 (broadcastInDim S100000x64 ![] bcast_S_S100000x64 : (⟨S_, .f32⟩ : BufTy).Contents (Elt F) → (⟨S100000x64, .f32⟩ : BufTy).Contents (Elt F)),
    StableHlo.unary main_v3 main_v19 (broadcastInDim S1600000x1 ![0] bcast_S1600000_S1600000x1_0 : (⟨S1600000, .i32⟩ : BufTy).Contents (Elt F) → (⟨S1600000x1, .i32⟩ : BufTy).Contents (Elt F)),
    StableHlo.ternary main_v18 main_v19 main_v17 main_v20 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg5 main_v21 ((transpose S64x64 [1, 0] · transposes_S64x64_S64x64_1_0) : (⟨S64x64, .f32⟩ : BufTy).Contents (Elt F) → (⟨S64x64, .f32⟩ : BufTy).Contents (Elt F)),
    StableHlo.binary main_v20 main_v21 main_v22 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v23 (broadcastInDim S1x64 ![1] bcast_S64_S1x64_1 : (⟨S64, .f32⟩ : BufTy).Contents (Elt F) → (⟨S1x64, .f32⟩ : BufTy).Contents (Elt F)),
    StableHlo.unary main_v23 main_v24 (broadcastInDim S100000x64 ![0, 1] bcast_S1x64_S100000x64_0_1 : (⟨S1x64, .f32⟩ : BufTy).Contents (Elt F) → (⟨S100000x64, .f32⟩ : BufTy).Contents (Elt F)),
    StableHlo.binary main_v22 main_v24 main_v25 (addf : (⟨S100000x64, .f32⟩ : BufTy).Contents (Elt F) → (⟨S100000x64, .f32⟩ : BufTy).Contents (Elt F) → (⟨S100000x64, .f32⟩ : BufTy).Contents (Elt F)),
    StableHlo.unary main_arg7 main_v26 ((transpose S64x64 [1, 0] · transposes_S64x64_S64x64_1_0) : (⟨S64x64, .f32⟩ : BufTy).Contents (Elt F) → (⟨S64x64, .f32⟩ : BufTy).Contents (Elt F)),
    StableHlo.binary main_v16 main_v26 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v25 main_v27 main_v28 (addf : (⟨S100000x64, .f32⟩ : BufTy).Contents (Elt F) → (⟨S100000x64, .f32⟩ : BufTy).Contents (Elt F) → (⟨S100000x64, .f32⟩ : BufTy).Contents (Elt F)) ]

/-- The first layer's operations: the edge rows, the gather, the scatter-add, the layer, its maximum with zero. -/
abbrev opsA : List (HloOp τ sig (Elt F)) :=
  [
    StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.TRef.nullary main_call0.c (constantI S_ 32 0#32),
    StableHlo.TRef.unary main_call0.c main_call0.v0 (broadcastInDim S1600000 ![] bcast_S_S1600000),
    StableHlo.TRef.binary (.of main_v1) main_call0.v0 main_call0.v1 (cmpi .slt),
    StableHlo.TRef.nullary main_call0.c_0 (constantI S_ 32 100000#32),
    StableHlo.TRef.unary main_call0.c_0 main_call0.v2 (broadcastInDim S1600000 ![] bcast_S_S1600000),
    StableHlo.TRef.binary (.of main_v1) main_call0.v2 main_call0.v3 addi,
    StableHlo.TRef.ternary main_call0.v1 main_call0.v3 (.of main_v1) main_call0.call0.v0 select,
    StableHlo.TRef.unary main_call0.call0.v0 main_call0.v5 (broadcastInDim S1600000x1 ![0] bcast_S1600000_S1600000x1_0),
    StableHlo.TRef.nullary main_call0.c_1 (constantI S1 32 99999#32),
    StableHlo.TRef.nullary main_call0.c_2 (constantI S_ 32 0#32),
    StableHlo.TRef.unary main_call0.c_2 main_call0.v6 (broadcastInDim S1600000x1 ![] bcast_S_S1600000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1600000x1 ![0, 1] bcast_S1x1_S1600000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1600000x1_S1600000_d1 h_S_),
    StableHlo.TRef.binary (.of main_arg0) main_call0.v5 main_call0.v13 (fun x i => Host.gather gather_S100000x64_S1600000x1_S1600000x64_1_0_n_n_0_1_164 x i),
    StableHlo.TRef.unary main_call0.v12 main_call0.v14 (broadcastInDim S1600000x64 ![0] bcast_S1600000_S1600000x64_0),
    StableHlo.TRef.nullary main_call0.cst (constant S_ .f32 0x7FC00000#32),
    StableHlo.TRef.unary main_call0.cst main_call0.v15 (broadcastInDim S1600000x64 ![] bcast_S_S1600000x64),
    StableHlo.TRef.ternary main_call0.v14 main_call0.v13 main_call0.v15 main_call0.v16 select,
    StableHlo.nullary main_cst (constant S_ .f32 0x00000000#32),
    StableHlo.unary main_cst main_v5 (broadcastInDim S100000x64 ![] bcast_S_S100000x64 : (⟨S_, .f32⟩ : BufTy).Contents (Elt F) → (⟨S100000x64, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg2 main_v8 ((transpose S64x64 [1, 0] · transposes_S64x64_S64x64_1_0) : (⟨S64x64, .f32⟩ : BufTy).Contents (Elt F) → (⟨S64x64, .f32⟩ : BufTy).Contents (Elt F)),
    StableHlo.binary main_v7 main_v8 main_v9 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S100000x64 ![0, 1] bcast_S1x64_S100000x64_0_1 : (⟨S1x64, .f32⟩ : BufTy).Contents (Elt F) → (⟨S100000x64, .f32⟩ : BufTy).Contents (Elt F)),
    StableHlo.binary main_v9 main_v11 main_v12 (addf : (⟨S100000x64, .f32⟩ : BufTy).Contents (Elt F) → (⟨S100000x64, .f32⟩ : BufTy).Contents (Elt F) → (⟨S100000x64, .f32⟩ : BufTy).Contents (Elt F)),
    StableHlo.unary main_arg4 main_v13 ((transpose S64x64 [1, 0] · transposes_S64x64_S64x64_1_0) : (⟨S64x64, .f32⟩ : BufTy).Contents (Elt F) → (⟨S64x64, .f32⟩ : BufTy).Contents (Elt F)),
    StableHlo.binary main_arg0 main_v13 main_v14 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v12 main_v14 main_v15 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v15) main_call1.v0 main_call1.v1 maximumf ]

/-- The second layer's operations: the gather, the scatter-add, the layer. -/
abbrev opsB : List (HloOp τ sig (Elt F)) :=
  [
    StableHlo.TRef.nullary main_call2.c (constantI S_ 32 0#32),
    StableHlo.TRef.unary main_call2.c main_call2.v0 (broadcastInDim S1600000 ![] bcast_S_S1600000),
    StableHlo.TRef.binary (.of main_v1) main_call2.v0 main_call2.v1 (cmpi .slt),
    StableHlo.TRef.nullary main_call2.c_0 (constantI S_ 32 100000#32),
    StableHlo.TRef.unary main_call2.c_0 main_call2.v2 (broadcastInDim S1600000 ![] bcast_S_S1600000),
    StableHlo.TRef.binary (.of main_v1) main_call2.v2 main_call2.v3 addi,
    StableHlo.TRef.ternary main_call2.v1 main_call2.v3 (.of main_v1) main_call2.call0.v0 select,
    StableHlo.TRef.unary main_call2.call0.v0 main_call2.v5 (broadcastInDim S1600000x1 ![0] bcast_S1600000_S1600000x1_0),
    StableHlo.TRef.nullary main_call2.c_1 (constantI S1 32 99999#32),
    StableHlo.TRef.nullary main_call2.c_2 (constantI S_ 32 0#32),
    StableHlo.TRef.unary main_call2.c_2 main_call2.v6 (broadcastInDim S1600000x1 ![] bcast_S_S1600000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S1600000x1 ![0, 1] bcast_S1x1_S1600000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1600000x1_S1600000_d1 h_S_),
    StableHlo.TRef.binary (.of main_v16) main_call2.v5 main_call2.v13 (fun x i => Host.gather gather_S100000x64_S1600000x1_S1600000x64_1_0_n_n_0_1_164 x i),
    StableHlo.TRef.unary main_call2.v12 main_call2.v14 (broadcastInDim S1600000x64 ![0] bcast_S1600000_S1600000x64_0),
    StableHlo.TRef.nullary main_call2.cst (constant S_ .f32 0x7FC00000#32),
    StableHlo.TRef.unary main_call2.cst main_call2.v15 (broadcastInDim S1600000x64 ![] bcast_S_S1600000x64),
    StableHlo.TRef.ternary main_call2.v14 main_call2.v13 main_call2.v15 main_call2.v16 select,
    StableHlo.nullary main_cst_0 (constant S_ .f32 0x00000000#32),
    StableHlo.unary main_cst_0 main_v18 (broadcastInDim S100000x64 ![] bcast_S_S100000x64 : (⟨S_, .f32⟩ : BufTy).Contents (Elt F) → (⟨S100000x64, .f32⟩ : BufTy).Contents (Elt F)),
    StableHlo.unary main_v3 main_v19 (broadcastInDim S1600000x1 ![0] bcast_S1600000_S1600000x1_0 : (⟨S1600000, .i32⟩ : BufTy).Contents (Elt F) → (⟨S1600000x1, .i32⟩ : BufTy).Contents (Elt F)),
    StableHlo.ternary main_v18 main_v19 main_v17 main_v20 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg5 main_v21 ((transpose S64x64 [1, 0] · transposes_S64x64_S64x64_1_0) : (⟨S64x64, .f32⟩ : BufTy).Contents (Elt F) → (⟨S64x64, .f32⟩ : BufTy).Contents (Elt F)),
    StableHlo.binary main_v20 main_v21 main_v22 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v23 (broadcastInDim S1x64 ![1] bcast_S64_S1x64_1 : (⟨S64, .f32⟩ : BufTy).Contents (Elt F) → (⟨S1x64, .f32⟩ : BufTy).Contents (Elt F)),
    StableHlo.unary main_v23 main_v24 (broadcastInDim S100000x64 ![0, 1] bcast_S1x64_S100000x64_0_1 : (⟨S1x64, .f32⟩ : BufTy).Contents (Elt F) → (⟨S100000x64, .f32⟩ : BufTy).Contents (Elt F)),
    StableHlo.binary main_v22 main_v24 main_v25 (addf : (⟨S100000x64, .f32⟩ : BufTy).Contents (Elt F) → (⟨S100000x64, .f32⟩ : BufTy).Contents (Elt F) → (⟨S100000x64, .f32⟩ : BufTy).Contents (Elt F)),
    StableHlo.unary main_arg7 main_v26 ((transpose S64x64 [1, 0] · transposes_S64x64_S64x64_1_0) : (⟨S64x64, .f32⟩ : BufTy).Contents (Elt F) → (⟨S64x64, .f32⟩ : BufTy).Contents (Elt F)),
    StableHlo.binary main_v16 main_v26 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v25 main_v27 main_v28 (addf : (⟨S100000x64, .f32⟩ : BufTy).Contents (Elt F) → (⟨S100000x64, .f32⟩ : BufTy).Contents (Elt F) → (⟨S100000x64, .f32⟩ : BufTy).Contents (Elt F)) ]

/-- The operations are the first layer's followed by the second layer's. -/
theorem ops_split : (ops : List (HloOp τ sig (Elt F))) = opsA ++ opsB := rfl

/-- The reference's entry point is that straight line: sequencing re-associated, the two sides are one chain of
    the same operations, which the kernel's definitional unfolding checks. -/
theorem main_eq (c : Dev nD) : main (F := F) c = StableHlo.seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.nullary_bufs_sub .., StableHlo.unary_bufs_sub .., StableHlo.unary_bufs_sub .., StableHlo.ternary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.nullary_bufs_sub .., StableHlo.unary_bufs_sub .., StableHlo.unary_bufs_sub .., StableHlo.ternary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub ..⟩

/-- Every weakly fair execution of the reference terminates, and every buffer ends at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ

end Cert.ReferenceIdeal.HandRun

end
-- ==== Proof.RefValue.lean ====
/-
  What the reference computes, as one term of its arguments: the neighbour aggregate of the features, the
  first layer with its maximum with zero, the aggregate of that, the second layer.  Read off the run's fold
  of the operations, one layer's operations at a time; the gather-and-add chain is kept folded under its name.
-/
import proofs.«154738_j18545668784680_2_alg».proof.Proof.RefRun
import proofs.«154738_j18545668784680_2_alg».proof.Proof.HostChain
import proofs.«154738_j18545668784680_2_alg».proof.Proof.LibTRef
import Idealize.ShloMosaic.Lib.Pipeline.Frame

noncomputable section

namespace Cert.ReferenceIdeal.RefValue

open Idealize.ShloMosaic Idealize.SL.Sem Cert.ReferenceIdeal Cert.ReferenceIdeal.Facts₀ Cert.ReferenceIdeal.HandRun
open Cert.GConv (aggOf aggFrom srcOf dstOf)

variable {F : FTy → Type} [FloatOps F]

/-- The reference's layer before the activation: the aggregate times the neighbour weights' transpose, plus the
    bias along every row, plus the features times the root weights' transpose. -/
def refLayer (a x : FVec F S100000x64 .f32) (Wrel : FVec F S64x64 .f32) (b : FVec F S64 .f32) (Wroot : FVec F S64x64 .f32) :
    FVec F S100000x64 .f32 :=
  addf
    (addf (Host.dotGeneral dot_S100000x64_S64x64_S100000x64_1_0_0_1_n_n none a (transpose S64x64 [1, 0] Wrel transposes_S64x64_S64x64_1_0))
      (broadcastInDim S100000x64 ![0, 1] bcast_S1x64_S100000x64_0_1 (broadcastInDim S1x64 ![1] bcast_S64_S1x64_1 b)))
    (Host.dotGeneral dot_S100000x64_S64x64_S100000x64_1_0_0_1_n_n none x (transpose S64x64 [1, 0] Wroot transposes_S64x64_S64x64_1_0))

/-- The maximum with the float zero, entry by entry. -/
def relu (y : FVec F S100000x64 .f32) : FVec F S100000x64 .f32 :=
  maximumf y (broadcastInDim S100000x64 ![] bcast_S_S100000x64 (constant S_ .f32 0x00000000#32))

/-- The first layer's output. -/
def hidden (x : FVec F S100000x64 .f32) (e : IVec S2x1600000 32) (W2 : FVec F S64x64 .f32) (b3 : FVec F S64 .f32)
    (W4 : FVec F S64x64 .f32) : FVec F S100000x64 .f32 :=
  relu (refLayer (aggOf x e) x W2 b3 W4)

/-- The reference's result. -/
def refOut (x : FVec F S100000x64 .f32) (e : IVec S2x1600000 32) (W2 : FVec F S64x64 .f32) (b3 : FVec F S64 .f32)
    (W4 W5 : FVec F S64x64 .f32) (b6 : FVec F S64 .f32) (W7 : FVec F S64x64 .f32) : FVec F S100000x64 .f32 :=
  refLayer (aggOf (hidden x e W2 b3 W4) e) (hidden x e W2 b3 W4) W5 b6 W7

section Stages
variable (Wv : Valuation τ sig (Elt F))

attribute [local irreducible] Host.reduce Host.gather Host.scatterAdd

/-- After the first layer's operations the first layer's output buffer holds `hidden` of the arguments. -/
theorem A_v16 : StableHlo.after (opsA (F := F)) Wv (Proc.devRef .tc main_v16)
    = hidden (Wv (Proc.devRef .tc main_arg0)) (Wv (Proc.devRef .tc main_arg1)) (Wv (Proc.devRef .tc main_arg2))
        (Wv (Proc.devRef .tc main_arg3)) (Wv (Proc.devRef .tc main_arg4)) := by
  open Idealize.ShloMosaic.StableHlo in after_results_simp
  simp only [Cert.LibTRef.ofBuf_toBuf]
  rfl
theorem A_v1 : StableHlo.after (opsA (F := F)) Wv (Proc.devRef .tc main_v1) = srcOf (Wv (Proc.devRef .tc main_arg1)) := by
  open Idealize.ShloMosaic.StableHlo in after_results_simp
  rfl
theorem A_v3 : StableHlo.after (opsA (F := F)) Wv (Proc.devRef .tc main_v3) = dstOf (Wv (Proc.devRef .tc main_arg1)) := by
  open Idealize.ShloMosaic.StableHlo in after_results_simp
  rfl
/-- The first layer's operations write no argument. -/
theorem A_arg (a : Ref sig .tc) (ha : a = main_arg0 ∨ a = main_arg1 ∨ a = main_arg2 ∨ a = main_arg3 ∨ a = main_arg4
      ∨ a = main_arg5 ∨ a = main_arg6 ∨ a = main_arg7) :
    StableHlo.after (opsA (F := F)) Wv (Proc.devRef .tc a) = Wv (Proc.devRef .tc a) := by
  rcases ha with rfl | rfl | rfl | rfl | rfl | rfl | rfl | rfl <;>
  · open Idealize.ShloMosaic.StableHlo in after_results_simp
/-- After the second layer's operations the result buffer holds the second layer of what was there. -/
theorem B_v28 : StableHlo.after (opsB (F := F)) Wv (Proc.devRef .tc main_v28)
    = refLayer (aggFrom (Wv (Proc.devRef .tc main_v16)) (Wv (Proc.devRef .tc main_v1)) (Wv (Proc.devRef .tc main_v3)))
        (Wv (Proc.devRef .tc main_v16)) (Wv (Proc.devRef .tc main_arg5)) (Wv (Proc.devRef .tc main_arg6))
        (Wv (Proc.devRef .tc main_arg7)) := by
  open Idealize.ShloMosaic.StableHlo in after_results_simp
  simp only [Cert.LibTRef.ofBuf_toBuf]
  rfl
/-- The second layer's operations write no argument. -/
theorem B_arg (a : Ref sig .tc) (ha : a = main_arg0 ∨ a = main_arg1 ∨ a = main_arg2 ∨ a = main_arg3 ∨ a = main_arg4
      ∨ a = main_arg5 ∨ a = main_arg6 ∨ a = main_arg7) :
    StableHlo.after (opsB (F := F)) Wv (Proc.devRef .tc a) = Wv (Proc.devRef .tc a) := by
  rcases ha with rfl | rfl | rfl | rfl | rfl | rfl | rfl | rfl <;>
  · open Idealize.ShloMosaic.StableHlo in after_results_simp

end Stages

/-- The fold of the reference's operations at its result buffer is `refOut` of the argument buffers' contents. -/
theorem out_eq (V : Valuation τ sig (Elt F)) :
    StableHlo.after (ops (F := F)) V (Proc.devRef .tc main_v28)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  rw [ops_split, StableHlo.after_append, B_v28, A_v16, A_v1, A_v3,
    A_arg V main_arg5 (by simp), A_arg V main_arg6 (by simp), A_arg V main_arg7 (by simp)]
  rfl

/-- The fold of the reference's operations at an argument's buffer is what was there. -/
theorem arg_eq (V : Valuation τ sig (Elt F)) (a : Ref sig .tc) (ha : a = main_arg0 ∨ a = main_arg1 ∨ a = main_arg2
      ∨ a = main_arg3 ∨ a = main_arg4 ∨ a = main_arg5 ∨ a = main_arg6 ∨ a = main_arg7) :
    StableHlo.after (ops (F := F)) V (Proc.devRef .tc a) = V (Proc.devRef .tc a) := by
  rw [ops_split, StableHlo.after_append, B_arg _ a ha, A_arg V a ha]

/-- From the run's post: every argument buffer ends as launched. -/
theorem args_kept (m : (ℓ : Loc nD τ sig) → Buf (Elt F) ℓ) (c : Dev nD)
    (f : (b : Ref sig .tc) → Buf (Elt F) ((c.tc : Thread nD τ).loc b))
    (h : ∀ b : Ref sig .tc, f b = StableHlo.after (ops (F := F)) (StableHlo.launchContents m c) (Proc.devRef .tc b)) :
    f main_arg0 = m ((c.tc : Thread nD τ).loc main_arg0) ∧ f main_arg1 = m ((c.tc : Thread nD τ).loc main_arg1)
    ∧ f main_arg2 = m ((c.tc : Thread nD τ).loc main_arg2) ∧ f main_arg3 = m ((c.tc : Thread nD τ).loc main_arg3)
    ∧ f main_arg4 = m ((c.tc : Thread nD τ).loc main_arg4) ∧ f main_arg5 = m ((c.tc : Thread nD τ).loc main_arg5)
    ∧ f main_arg6 = m ((c.tc : Thread nD τ).loc main_arg6) ∧ f main_arg7 = m ((c.tc : Thread nD τ).loc main_arg7) :=
  ⟨(h _).trans (arg_eq _ _ (by simp)), (h _).trans (arg_eq _ _ (by simp)), (h _).trans (arg_eq _ _ (by simp)),
    (h _).trans (arg_eq _ _ (by simp)), (h _).trans (arg_eq _ _ (by simp)), (h _).trans (arg_eq _ _ (by simp)),
    (h _).trans (arg_eq _ _ (by simp)), (h _).trans (arg_eq _ _ (by simp))⟩

end Cert.ReferenceIdeal.RefValue

end
-- ==== Proof.RefLayer.lean ====
/-
  The reference's layer is the kernel's layer.  Entry (r, q) of the reference's layer is
      (∑ k, agg (r, k) · W_rel (q, k) + b q) + ∑ k, x (r, k) · W_root (q, k)
  (a transpose read at (k, q) is the matrix at (q, k); the bias broadcast along rows reads b q); entry (r, q)
  of the kernel's layer over the stacked weights and the bias row is
      (∑ k, agg (r, k) · W_rel (q, k) + ∑ k, x (r, k) · W_root (q, k)) + b q
  (the stack's first 64 rows are W_relᵀ, its last 64 W_rootᵀ).  The two differ by the order of two additions.
-/
import proofs.«154738_j18545668784680_2_alg».proof.Proof.RefValue
import proofs.«154738_j18545668784680_2_alg».proof.Proof.Layer
import proofs.«154738_j18545668784680_2_alg».proof.Proof.HostChain
import Idealize.ShloMosaic.Lib.ValueLayout
import Idealize.ShloMosaic.Lib.KernelVsHost

noncomputable section

namespace Cert.GConv

open Idealize.ShloMosaic Idealize.ShloMosaic.ValueIdx
open Cert.ReferenceIdeal.RefValue (refLayer relu)

/-- A vector laid as the one row of a [1, n] matrix by `broadcast_in_dim` along axis 1 reads, at (u, t), entry t. -/
theorem bcast_vec_row_apply {α : Type} {n : Nat} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) ?_
  intro a
  match a with
  | ⟨0, _⟩ =>
    show t.val = if n = 1 then 0 else t.val
    split
    · have := t.isLt; omega
    · rfl

/-- A scalar broadcast to any shape reads the scalar everywhere. -/
theorem bcast_scalar_apply {α : Type} {s : Shape} (h : (⟨0, ![]⟩ : Shape).BroadcastsInDim s ![])
    (x : (⟨0, ![]⟩ : Shape).Idx → α) (i : s.Idx) : broadcastInDim s ![] h x i = x ix0 :=
  broadcastInDim_apply ![] h x i ix0 (fun a => a.elim0)

/-- The stacked weights' first 64 rows are the neighbour weights transposed. -/
theorem stackW_lo (Wrel Wroot : FVec Ideal Cert.KernelIdeal.S64x64 .f32) (k q : Fin 64) :
    stackW Wrel Wroot (ix2 (lo k) q) = Wrel (ix2 q k) := by
  unfold stackW
  refine (concatenate_pair_apply_left (s₁ := Cert.KernelIdeal.S64x64) (s₂ := Cert.KernelIdeal.S64x64) (0 : Fin 2) _ _ _ (ix2 (lo k) q) rfl (ix2 k q)
    (fun b => match b with | ⟨0, _⟩ => rfl | ⟨1, _⟩ => rfl)).trans ?_
  exact transpose_ix2_apply Wrel _ k q

/-- The stacked weights' last 64 rows are the root weights transposed. -/
theorem stackW_hi (Wrel Wroot : FVec Ideal Cert.KernelIdeal.S64x64 .f32) (k q : Fin 64) :
    stackW Wrel Wroot (ix2 (hi k) q) = Wroot (ix2 q k) := by
  unfold stackW
  refine (concatenate_pair_apply_right (s₁ := Cert.KernelIdeal.S64x64) (s₂ := Cert.KernelIdeal.S64x64) (0 : Fin 2) _ _ _ (ix2 (hi k) q) rfl rfl (ix2 k q)
    (fun b hb => match b with | ⟨0, _⟩ => absurd rfl hb | ⟨1, _⟩ => rfl)
    (by show k.val + 64 = 64 + k.val; omega)).trans ?_
  exact transpose_ix2_apply Wroot _ k q

/-- The bias row reads the bias. -/
theorem rowB_apply (b : FVec Ideal Cert.KernelIdeal.S64 .f32) (q : Fin 64) :
    rowB b (ix2 (0 : Fin 1) q) = b (ix1 q) := by
  unfold rowB
  exact shapeCast_a_1a_apply b _ 0 q

/-- The reference's layer at entry (r, q). -/
theorem refLayer_apply (a x : FVec Ideal Cert.ReferenceIdeal.S100000x64 .f32) (Wrel : FVec Ideal Cert.ReferenceIdeal.S64x64 .f32)
    (b : FVec Ideal Cert.ReferenceIdeal.S64 .f32) (Wroot : FVec Ideal Cert.ReferenceIdeal.S64x64 .f32) (r : Fin 100000) (q : Fin 64) :
    refLayer a x Wrel b Wroot (ix2 r q)
      = (∑ k : Fin 64, a (ix2 r k) * Wrel (ix2 q k) + b (ix1 q)) + ∑ k : Fin 64, x (ix2 r k) * Wroot (ix2 q k) := by
  unfold refLayer
  refine congrArg₂ (· + ·) (congrArg₂ (· + ·) ?_ ?_) ?_
  · refine (LibPlainDot.dotGeneral_apply _ rfl none a _ r q).trans (Finset.sum_congr rfl fun k _ => ?_)
    rw [transpose_ix2_apply]
  · refine (broadcastInDim_oneRow_apply _ _ r q).trans ?_
    exact bcast_vec_row_apply _ b 0 q
  · refine (LibPlainDot.dotGeneral_apply _ rfl none x _ r q).trans (Finset.sum_congr rfl fun k _ => ?_)
    rw [transpose_ix2_apply]

theorem layerArr_ix2 (rl : Bool) (A X : Cert.KernelIdeal.S100000x64.Idx → EReal) (wc : Cert.KernelIdeal.S128x64.Idx → EReal)
    (b2 : Cert.KernelIdeal.S1x64.Idx → EReal) (r : Fin 100000) (q : Fin 64) :
    layerArr rl A X wc b2 (ix2 r q) = layerAt rl A X wc b2 r q := rfl

/-- The kernel's linear form over the stacked weights and the bias row is the reference's layer. -/
theorem rowLin_stack (a x : FVec Ideal Cert.KernelIdeal.S100000x64 .f32) (Wrel : FVec Ideal Cert.KernelIdeal.S64x64 .f32)
    (b : FVec Ideal Cert.KernelIdeal.S64 .f32) (Wroot : FVec Ideal Cert.KernelIdeal.S64x64 .f32) (r : Fin 100000) (q : Fin 64) :
    rowLin (fun k => a (ix2 r k)) (fun k => x (ix2 r k)) (stackW Wrel Wroot) (rowB b) q
      = refLayer a x Wrel b Wroot (ix2 r q) := by
  rw [refLayer_apply]
  unfold rowLin
  simp only [stackW_lo, stackW_hi, rowB_apply]
  exact add_right_comm _ _ _

/-- THE SECOND LAYER: the reference's layer is the kernel's, without activation. -/
theorem layer2_eq (a x : FVec Ideal Cert.KernelIdeal.S100000x64 .f32) (Wrel : FVec Ideal Cert.KernelIdeal.S64x64 .f32)
    (b : FVec Ideal Cert.KernelIdeal.S64 .f32) (Wroot : FVec Ideal Cert.KernelIdeal.S64x64 .f32) :
    layerArr false a x (stackW Wrel Wroot) (rowB b) = refLayer a x Wrel b Wroot := by
  funext i
  obtain ⟨r, q, rfl⟩ : ∃ (r : Fin 100000) (q : Fin 64), i = ix2 r q := ⟨i 0, i 1, eq_ix2 i⟩
  rw [layerArr_ix2]
  unfold layerAt act
  rw [if_neg (by decide)]
  exact rowLin_stack a x Wrel b Wroot r q

/-- THE FIRST LAYER: the reference's layer followed by its maximum with zero is the kernel's. -/
theorem layer1_eq (a x : FVec Ideal Cert.KernelIdeal.S100000x64 .f32) (Wrel : FVec Ideal Cert.KernelIdeal.S64x64 .f32)
    (b : FVec Ideal Cert.KernelIdeal.S64 .f32) (Wroot : FVec Ideal Cert.KernelIdeal.S64x64 .f32) :
    layerArr true a x (stackW Wrel Wroot) (rowB b) = relu (refLayer a x Wrel b Wroot) := by
  funext i
  obtain ⟨r, q, rfl⟩ : ∃ (r : Fin 100000) (q : Fin 64), i = ix2 r q := ⟨i 0, i 1, eq_ix2 i⟩
  rw [layerArr_ix2]
  unfold layerAt act relu
  rw [if_pos rfl, maximumf_apply, rowLin_stack a x Wrel b Wroot r q]
  refine congrArg (max _) ?_
  exact ((bcast_scalar_apply _ _ _).trans (constant_apply _ _)).symm

end Cert.GConv

end
-- ==== Proof.lean ====
/-
  A two-layer graph convolution: each layer adds, at every node, the features of the nodes with an edge into it
  (a row gather along the edges' sources, a scatter-add at their destinations), and outputs
  aggregate · W_relᵀ + b + features · W_rootᵀ; the first layer is followed by the maximum with zero.

  The kernel program leaves the gather and scatter-add on the host, exactly as the reference writes them, and
  computes each layer's linear part in one pipelined region: per block of 5000 nodes, ONE product of the rows
  [aggregate | features] (128 columns) with the stacked weights [W_relᵀ ; W_rootᵀ], plus the bias row.  Read at
  the ideal values (a float an extended real, a change of float format the identity), entry (r, q) of that is
  (∑ₖ agg (r, k) · W_rel (q, k) + ∑ₖ x (r, k) · W_root (q, k)) + b q, and the reference's is
  (∑ₖ agg (r, k) · W_rel (q, k) + b q) + ∑ₖ x (r, k) · W_root (q, k): equal in any commutative additive monoid, so
  also where a sum is infinite — no finiteness of the inputs is used.  The first layers agree, so the second
  layers take the same gather and scatter-add of the same array, and agree in turn.

  The frames: the kernel program's two readings (as words, as ideal values) run, terminate and keep their
  arguments by the generated frame of its seven segments; the reference's by its straight-line run.  The ideal
  pass rewrote nothing, so there is nothing to preserve.
-/
import proofs.«154738_j18545668784680_2_alg».proof.Defs
import proofs.«154738_j18545668784680_2_alg».proof.Proof.Gen.Kernel.Frame
import proofs.«154738_j18545668784680_2_alg».proof.Proof.Gen.KernelIdeal.Frame
import proofs.«154738_j18545668784680_2_alg».proof.Proof.Gen.ReferenceIdeal
import proofs.«154738_j18545668784680_2_alg».proof.Proof.Gen.Pre_finite_inputs
import proofs.«154738_j18545668784680_2_alg».proof.Proof.KernelRun
import proofs.«154738_j18545668784680_2_alg».proof.Proof.KernelValue
import proofs.«154738_j18545668784680_2_alg».proof.Proof.RefRun
import proofs.«154738_j18545668784680_2_alg».proof.Proof.RefValue
import proofs.«154738_j18545668784680_2_alg».proof.Proof.RefLayer

noncomputable section

namespace Cert.Proof

open Idealize.ShloMosaic Idealize.SL.Sem

/-- The kernel program's result term is the reference's: layer by layer, the kernel's layer over the stacked
    weights and the bias row is the reference's layer. -/
theorem kerOut_eq_refOut (x : FVec Ideal Cert.KernelIdeal.S100000x64 .f32) (e : IVec Cert.KernelIdeal.S2x1600000 32)
    (W2 : FVec Ideal Cert.KernelIdeal.S64x64 .f32) (b3 : FVec Ideal Cert.KernelIdeal.S64 .f32)
    (W4 W5 : FVec Ideal Cert.KernelIdeal.S64x64 .f32) (b6 : FVec Ideal Cert.KernelIdeal.S64 .f32)
    (W7 : FVec Ideal Cert.KernelIdeal.S64x64 .f32) :
    Cert.KernelIdeal.HandValue.kerOut x e W2 b3 W4 W5 b6 W7 = Cert.ReferenceIdeal.RefValue.refOut x e W2 b3 W4 W5 b6 W7 := by
  unfold Cert.KernelIdeal.HandValue.kerOut Cert.ReferenceIdeal.RefValue.refOut Cert.ReferenceIdeal.RefValue.hidden
  rw [Cert.GConv.layer1_eq, Cert.GConv.layer2_eq]

theorem frame_k : Cert.frame_Kernel := fun m ρ _ => Cert.Kernel.Gen.frame m ρ

theorem frame_ki : Cert.frame_KernelIdeal := fun m ρ _ => Cert.KernelIdeal.Gen.frame m ρ

/-- The reference runs, terminates, and writes none of its arguments: no operation's result buffer is an
    argument's, so the fold at an argument's buffer is the launch contents. -/
theorem frame_ri : Cert.frame_ReferenceIdeal := fun m ρ _ =>
  (θ_run Cert.ReferenceIdeal.defs _ _).mono (fun _ h c => Cert.ReferenceIdeal.RefValue.args_kept m c _ (h c))
    (Cert.ReferenceIdeal.HandRun.run_main (F := Ideal) m ρ)

theorem preserves : Cert.preserves_Kernel_KernelIdeal := trivial

/-- Run from memories that agree on the arguments, both idealized programs end with the same result array. -/
theorem algebraic : Cert.algebraic_KernelIdeal_ReferenceIdeal := by
  intro m ρ m' ρ' _ hagree
  refine ⟨fun c => Cert.KernelIdeal.HandValue.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.HandValue.result_eq m ρ c), (h c).2⟩)
      (Cert.KernelIdeal.HandRun.run_result (F := Ideal) m ρ)
  · refine (θ_run Cert.ReferenceIdeal.defs _ _).mono (fun _ h c => ⟨?_, Cert.ReferenceIdeal.RefValue.args_kept m' c _ (h c)⟩)
      (Cert.ReferenceIdeal.HandRun.run_main (F := Ideal) m' ρ')
    rw [h c Cert.ReferenceIdeal.main_v28, Cert.ReferenceIdeal.RefValue.out_eq]
    obtain ⟨e0, e1, e2, e3, e4, e5, e6, e7⟩ := hagree c
    show Cert.ReferenceIdeal.RefValue.refOut
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
      = Cert.KernelIdeal.HandValue.kerOut
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
    rw [e0, e1, e2, e3, e4, e5, e6, e7, kerOut_eq_refOut]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
